-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S2048x2048 .f32) (main_arg8 : FVec F S2048 .f32) (main_arg9 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  main_v48

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 19
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S1x512, .f32⟩
  | .local _ .vmem, ⟨9, _⟩ => ⟨S1x512, .f32⟩
  | .local _ .vmem, ⟨10, _⟩ => ⟨S512x2048, .bf16⟩
  | .local _ .vmem, ⟨11, _⟩ => ⟨S512x2048, .bf16⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S2048x2048.size a
  hwx0_7 : ∀ i : grid0.Coords, EltTy.bits .bf16 = 32 ∨ (Rect.block (s := S2048x2048) S512x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x2048.size a
  hwx0_10 : ∀ i : grid0.Coords, EltTy.bits .f32 = 32 ∨ (Rect.block (s := S4096x2048) S512x512.size (cc0_transform_10 i) (hinb0_10 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S2048x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S2048x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.BlockBody.lean ====
/-
  What the kernel's body stores at one grid point, entry by entry.

  At a grid point the body holds a 512-row block X of the input, a 512-row block of each gate's weights (512 hidden
  units by all 2048 features), the matching 512 entries of each bias as a [1, 512] row, and 512 entries of the previous
  cell state.  Each gate contracts the feature axis of X with the feature axis of its weight block, so entry (p, q) of a
  product is Σ_k X[p, k] · W[q, k]; the bias row is repeated down the 512 rows and added; the change of float format
  before the product is the identity on extended reals.  The stored block is σ(o) · tanh(σ(f) · cx + σ(i) · tanh(g)).
-/
import proofs.«105217_j60292750901718_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockBody

open Cert.KernelIdeal Cert.KernelIdeal.Gen
open Idealize.ShloMosaic Idealize.ShloMosaic.ValueIdx
open scoped BigOperators

/-- A gate's pre-activation inside a block: row `p` of the input block against row `q` of the weight block, plus
    entry `q` of the bias row. -/
def blockPre (X : FVec Ideal S512x2048 .f32) (W : FVec Ideal S512x2048 .bf16) (b : FVec Ideal S1x512 .f32) (p q : Fin 512) : EReal :=
  (∑ k : Fin 2048, X (ix2 p k) * W (ix2 q k)) + b (ix2 0 q)

/-! ## The product's operand indices -/

theorem lhs_row (j : S512x512.Idx) (k : dot_S512x2048_S512x2048_S512x512_1_1_0_0_n_n.contr.Idx) :
    (dot_S512x2048_S512x2048_S512x512_1_1_0_0_n_n.lhsIdx j k 0).val = (j 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl

theorem lhs_feature (j : S512x512.Idx) (k : dot_S512x2048_S512x2048_S512x512_1_1_0_0_n_n.contr.Idx) :
    (dot_S512x2048_S512x2048_S512x512_1_1_0_0_n_n.lhsIdx j k 1).val = (k ⟨0, by decide⟩).val :=
  dot_S512x2048_S512x2048_S512x512_1_1_0_0_n_n.lhsIdx_val_of_single rfl j k

theorem rhs_row (j : S512x512.Idx) (k : dot_S512x2048_S512x2048_S512x512_1_1_0_0_n_n.contr.Idx) :
    (dot_S512x2048_S512x2048_S512x512_1_1_0_0_n_n.rhsIdx j k 0).val = (j 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl

theorem rhs_feature (j : S512x512.Idx) (k : dot_S512x2048_S512x2048_S512x512_1_1_0_0_n_n.contr.Idx) :
    (dot_S512x2048_S512x2048_S512x512_1_1_0_0_n_n.rhsIdx j k 1).val = (k ⟨0, by decide⟩).val :=
  dot_S512x2048_S512x2048_S512x512_1_1_0_0_n_n.rhsIdx_val_of_single rfl j k

/-- The product into a zero accumulator, at entry (p, q): the sum over the features of X[p, k] · W[q, k]. -/
theorem product_at (A : FVec Ideal S512x2048 .bf16) (W : FVec Ideal S512x2048 .bf16) (p q : Fin 512) :
    matmul dot_S512x2048_S512x2048_S512x512_1_1_0_0_n_n none A W (constant S512x512 .f32 0x00000000#32) (ix2 p q)
      = ∑ k : Fin 2048, A (ix2 p k) * W (ix2 q k) := by
  show FloatOps.matmul dot_S512x2048_S512x2048_S512x512_1_1_0_0_n_n none A W (constant S512x512 .f32 0x00000000#32) (ix2 p q) = _
  rw [Ideal.matmul_constant_zero_apply,
    ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p q)
      ((ValueIdx.contrEquiv1 dot_S512x2048_S512x2048_S512x512_1_1_0_0_n_n 2048 rfl rfl).symm k) = ix2 p k :=
    funext fun a => Fin.ext (by
      match a with
      | ⟨0, _⟩ => exact lhs_row _ _
      | ⟨1, _⟩ => exact (lhs_feature _ _).trans hk)
  have er : dot_S512x2048_S512x2048_S512x512_1_1_0_0_n_n.rhsIdx (ix2 p q)
      ((ValueIdx.contrEquiv1 dot_S512x2048_S512x2048_S512x512_1_1_0_0_n_n 2048 rfl rfl).symm k) = ix2 q k :=
    funext fun a => Fin.ext (by
      match a with
      | ⟨0, _⟩ => exact rhs_row _ _
      | ⟨1, _⟩ => exact (rhs_feature _ _).trans hk)
  rw [el, er]

/-- Product plus the repeated bias row, as the body spells it, at entry (p, q). -/
theorem pre_at (X : FVec Ideal S512x2048 .f32) (W : FVec Ideal S512x2048 .bf16) (b : FVec Ideal S1x512 .f32) (p q : Fin 512) :
    addf (matmul dot_S512x2048_S512x2048_S512x512_1_1_0_0_n_n none (k0_pay2 X)
        (shapeCast S512x2048 W shapeCasts_S512x2048_S512x2048) (constant S512x512 .f32 0x00000000#32))
      (broadcastTo S512x512 (shapeCast S1x512 b shapeCasts_S1x512_S1x512) broadcasts_S1x512_S512x512) (ix2 p q)
      = blockPre X W b p q := by
  rw [shapeCast_self, shapeCast_self]
  show matmul dot_S512x2048_S512x2048_S512x512_1_1_0_0_n_n none (k0_pay2 X) W (constant S512x512 .f32 0x00000000#32) (ix2 p q)
      + broadcastTo S512x512 b broadcasts_S1x512_S512x512 (ix2 p q) = _
  rw [product_at, broadcastTo_1b_ab_apply]
  rfl

/-! ## The four gates and the stored block -/

theorem gate_i_at (X : FVec Ideal S512x2048 .f32) (W : FVec Ideal S512x2048 .bf16) (b : FVec Ideal S1x512 .f32) (p q : Fin 512) :
    k0_pay3 (F := Ideal) X W b (ix2 p q) = Ideal.logistic (blockPre X W b p q) := by
  unfold k0_pay3
  exact congrArg Ideal.logistic (pre_at X W b p q)

theorem gate_f_at (X : FVec Ideal S512x2048 .f32) (W : FVec Ideal S512x2048 .bf16) (b : FVec Ideal S1x512 .f32) (p q : Fin 512) :
    k0_pay4 (F := Ideal) X W b (ix2 p q) = Ideal.logistic (blockPre X W b p q) := by
  unfold k0_pay4
  exact congrArg Ideal.logistic (pre_at X W b p q)

theorem gate_g_at (X : FVec Ideal S512x2048 .f32) (W : FVec Ideal S512x2048 .bf16) (b : FVec Ideal S1x512 .f32) (p q : Fin 512) :
    k0_pay5 (F := Ideal) X W b (ix2 p q) = Ideal.tanh (blockPre X W b p q) := by
  unfold k0_pay5
  exact congrArg Ideal.tanh (pre_at X W b p q)

theorem gate_o_at (X : FVec Ideal S512x2048 .f32) (W : FVec Ideal S512x2048 .bf16) (b : FVec Ideal S1x512 .f32) (p q : Fin 512) :
    k0_pay6 (F := Ideal) X W b (ix2 p q) = Ideal.logistic (blockPre X W b p q) := by
  unfold k0_pay6
  exact congrArg Ideal.logistic (pre_at X W b p q)

/-- THE STORED BLOCK at entry (p, q): σ(o) · tanh(σ(f) · cx[q] + σ(i) · tanh(g)), each gate over the block's own rows. -/
theorem stored_at (X : FVec Ideal S512x2048 .f32) (Wi : FVec Ideal S512x2048 .bf16) (bi : FVec Ideal S1x512 .f32)
    (Wf : FVec Ideal S512x2048 .bf16) (bf : FVec Ideal S1x512 .f32) (Wg : FVec Ideal S512x2048 .bf16) (bg : FVec Ideal S1x512 .f32)
    (Wo : FVec Ideal S512x2048 .bf16) (bo : FVec Ideal S1x512 .f32) (cxb : FVec Ideal S1x512 .f32) (p q : Fin 512) :
    k0_pay1 (F := Ideal) (k0_pay3 X Wi bi) (k0_pay4 X Wf bf) (k0_pay5 X Wg bg) (k0_pay6 X Wo bo) cxb (ix2 p q)
      = Ideal.logistic (blockPre X Wo bo p q)
          * Ideal.tanh (Ideal.logistic (blockPre X Wf bf p q) * cxb (ix2 0 q)
              + Ideal.logistic (blockPre X Wi bi p q) * Ideal.tanh (blockPre X Wg bg p q)) := by
  unfold k0_pay1
  show k0_pay6 (F := Ideal) X Wo bo (ix2 p q)
      * Ideal.tanh (k0_pay4 (F := Ideal) X Wf bf (ix2 p q) * broadcastTo S512x512 cxb broadcasts_S1x512_S512x512 (ix2 p q)
          + k0_pay3 (F := Ideal) X Wi bi (ix2 p q) * k0_pay5 (F := Ideal) X Wg bg (ix2 p q)) = _
  rw [gate_o_at, gate_f_at, gate_i_at, gate_g_at, broadcastTo_1b_ab_apply]

end Cert.KernelIdeal.BlockBody

end
-- ==== Proof.CellSpec.lean ====
/-
  The LSTM cell's forward step as ONE function of the ten argument arrays, entry by entry over the extended reals.

  With x the [4096, 2048] input rows, W_i, W_f, W_g, W_o the four [2048, 2048] gate weights (hidden unit by input
  feature), b_i … b_o their [2048] biases and cx the [1, 2048] previous cell state, entry (r, c) of the result is

      σ(z_o) · tanh( σ(z_f) · cx[0, c] + σ(z_i) · tanh(z_g) ),     z_• = Σ_k x[r, k] · W_•[c, k] + b_•[c],

  where σ(z) = 1 / (1 + e^(-z)) is the logistic function with the extended reals' conventions at the infinities and
  tanh is the hyperbolic tangent extended the same way.  Both programs compute exactly this expression, operation for
  operation and in this order of the operands, so no law of arithmetic beyond the definition of σ is needed and
  nothing is assumed of the entries (they may be infinite).
-/
import Idealize.ShloMosaic.PureOps.Ideal.Laws
import Idealize.ShloMosaic.Lib.ValueIdx
import Idealize.ShloMosaic.Lib.IdealHost

noncomputable section

namespace Cert.CellSpec

open Idealize.ShloMosaic Idealize.ShloMosaic.ValueIdx
open scoped BigOperators

/-- The input rows: 4096 samples of 2048 features. -/
abbrev SX : Shape := ⟨2, ![4096, 2048]⟩
/-- One gate's weights: 2048 hidden units by 2048 features. -/
abbrev SW : Shape := ⟨2, ![2048, 2048]⟩
/-- One gate's bias: one number per hidden unit. -/
abbrev SB : Shape := ⟨1, ![2048]⟩
/-- The previous cell state: one row of 2048 hidden units. -/
abbrev SC : Shape := ⟨2, ![1, 2048]⟩

/-- A gate's pre-activation at sample `r`, hidden unit `c`: row `r` of `x` against row `c` of `W`, plus bias `c`. -/
def pre (x : FVec Ideal SX .f32) (W : FVec Ideal SW .f32) (b : FVec Ideal SB .f32) (r : Fin 4096) (c : Fin 2048) : EReal :=
  (∑ k : Fin 2048, x (ix2 r k) * W (ix2 c k)) + b (ix1 c)

/-- The new hidden state at sample `r`, hidden unit `c`. -/
def cellAt (x : FVec Ideal SX .f32) (Wi : FVec Ideal SW .f32) (bi : FVec Ideal SB .f32) (Wf : FVec Ideal SW .f32)
    (bf : FVec Ideal SB .f32) (Wg : FVec Ideal SW .f32) (bg : FVec Ideal SB .f32) (Wo : FVec Ideal SW .f32)
    (bo : FVec Ideal SB .f32) (cx : FVec Ideal SC .f32) (r : Fin 4096) (c : Fin 2048) : EReal :=
  Ideal.logistic (pre x Wo bo r c)
    * Ideal.tanh (Ideal.logistic (pre x Wf bf r c) * cx (ix2 0 c) + Ideal.logistic (pre x Wi bi r c) * Ideal.tanh (pre x Wg bg r c))

/-- The whole result array. -/
def cell (x : FVec Ideal SX .f32) (Wi : FVec Ideal SW .f32) (bi : FVec Ideal SB .f32) (Wf : FVec Ideal SW .f32)
    (bf : FVec Ideal SB .f32) (Wg : FVec Ideal SW .f32) (bg : FVec Ideal SB .f32) (Wo : FVec Ideal SW .f32)
    (bo : FVec Ideal SB .f32) (cx : FVec Ideal SC .f32) : FVec Ideal SX .f32 :=
  fun i => cellAt x Wi bi Wf bf Wg bg Wo bo cx (i 0) (i 1)

/-- The logistic function spelled out with the float word of 1.0 for both ones, as a host program writes it:
    `1.0 / (1.0 + e^(-z))` is σ(z), because the word `0x3F800000` denotes the real number one. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

end Cert.CellSpec

end
-- ==== Proof.BlockReads.lean ====
/-
  How each window's block at a grid point reads the argument arrays.

  The grid has 4 × 8 points (j, i): j picks 512 of the 2048 hidden units, i picks 512 of the 4096 samples.  At point
  (j, i) the output block is rows 512·i … 512·i + 511 and columns 512·j … 512·j + 511 of the result; the input block is
  the same rows of x with all 2048 features; each weight block is rows 512·j … of that gate's matrix with all features;
  each bias block and the cell-state block are columns 512·j … of a one-row array.  The weight arrays the kernel reads are
  the arguments with their float format changed (the identity on extended reals) and the bias rows are the bias vectors
  re-laid as [1, 2048] arrays, both written by the host before the kernel starts.
-/
import proofs.«105217_j60292750901718_2_alg».proof.Proof.Gen.KernelIdeal.Frame
import proofs.«105217_j60292750901718_2_alg».proof.Proof.CellSpec
import Idealize.ShloMosaic.Lib.Pipeline.Value
import Idealize.ShloMosaic.Lib.StableHlo.Run
import Idealize.ShloMosaic.Lib.ValueLayout

noncomputable section

namespace Cert.KernelIdeal.BlockReads

open Cert.KernelIdeal Cert.KernelIdeal.Gen Cert.CellSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The block indices of every window at a grid point, against the output window's: decided over the 32 points. -/
theorem idx_facts : ∀ t : Fin cfg0.N,
    win0_0.index t (0 : Fin 2) = win0_10.index t (0 : Fin 2)
    ∧ win0_0.index t (1 : Fin 2) = 0
    ∧ win0_1.index t (0 : Fin 2) = win0_10.index t (1 : Fin 2)
    ∧ win0_1.index t (1 : Fin 2) = 0
    ∧ win0_3.index t (0 : Fin 2) = win0_10.index t (1 : Fin 2)
    ∧ win0_3.index t (1 : Fin 2) = 0
    ∧ win0_5.index t (0 : Fin 2) = win0_10.index t (1 : Fin 2)
    ∧ win0_5.index t (1 : Fin 2) = 0
    ∧ win0_7.index t (0 : Fin 2) = win0_10.index t (1 : Fin 2)
    ∧ win0_7.index t (1 : Fin 2) = 0
    ∧ win0_2.index t (0 : Fin 2) = 0
    ∧ win0_2.index t (1 : Fin 2) = win0_10.index t (1 : Fin 2)
    ∧ win0_4.index t (0 : Fin 2) = 0
    ∧ win0_4.index t (1 : Fin 2) = win0_10.index t (1 : Fin 2)
    ∧ win0_6.index t (0 : Fin 2) = 0
    ∧ win0_6.index t (1 : Fin 2) = win0_10.index t (1 : Fin 2)
    ∧ win0_8.index t (0 : Fin 2) = 0
    ∧ win0_8.index t (1 : Fin 2) = win0_10.index t (1 : Fin 2)
    ∧ win0_9.index t (0 : Fin 2) = 0
    ∧ win0_9.index t (1 : Fin 2) = win0_10.index t (1 : Fin 2)
    ∧ win0_10.index t (0 : Fin 2) ≤ 7
    ∧ win0_10.index t (1 : Fin 2) ≤ 3 :=
  (by decide +kernel : ∀ t : Fin grid0.N, _)

/-- Every one of the 8 × 4 output blocks is some grid point's. -/
theorem idx_onto : ∀ (q0 : Fin 8) (q1 : Fin 4), ∃ t : Fin cfg0.N, win0_10.index t = ![q0.val, q1.val] :=
  (by decide +kernel : ∀ (q0 : Fin 8) (q1 : Fin 4), ∃ t : Fin grid0.N, win0_10.index t = ![q0.val, q1.val])

/-! ## The arrays the host writes before the kernel starts -/

/-- The input gate's weights as the kernel finds them: the argument with its float format changed. -/
theorem V_Wi (c : Dev nD) : (V m c main_v0 : S2048x2048.Idx → EReal)
    = (truncf .bf16 (m ((c : Thread nD τ).loc main_arg1) : FVec Ideal S2048x2048 .f32) bitsLt_bf16_f32 : FVec Ideal S2048x2048 .bf16) := by
  dsimp only [Gen.V, Gen.hostOps0]; after_results

/-- The forget gate's weights as the kernel finds them: the argument with its float format changed. -/
theorem V_Wf (c : Dev nD) : (V m c main_v1 : S2048x2048.Idx → EReal)
    = (truncf .bf16 (m ((c : Thread nD τ).loc main_arg3) : FVec Ideal S2048x2048 .f32) bitsLt_bf16_f32 : FVec Ideal S2048x2048 .bf16) := by
  dsimp only [Gen.V, Gen.hostOps0]; after_results

/-- The candidate's weights as the kernel finds them: the argument with its float format changed. -/
theorem V_Wg (c : Dev nD) : (V m c main_v2 : S2048x2048.Idx → EReal)
    = (truncf .bf16 (m ((c : Thread nD τ).loc main_arg5) : FVec Ideal S2048x2048 .f32) bitsLt_bf16_f32 : FVec Ideal S2048x2048 .bf16) := by
  dsimp only [Gen.V, Gen.hostOps0]; after_results

/-- The output gate's weights as the kernel finds them: the argument with its float format changed. -/
theorem V_Wo (c : Dev nD) : (V m c main_v3 : S2048x2048.Idx → EReal)
    = (truncf .bf16 (m ((c : Thread nD τ).loc main_arg7) : FVec Ideal S2048x2048 .f32) bitsLt_bf16_f32 : FVec Ideal S2048x2048 .bf16) := by
  dsimp only [Gen.V, Gen.hostOps0]; after_results

/-- The input gate's bias as the kernel finds it: the vector re-laid as one row. -/
theorem V_bi (c : Dev nD) : (V m c main_v4 : S1x2048.Idx → EReal)
    = shapeCast S1x2048 (m ((c : Thread nD τ).loc main_arg2) : FVec Ideal S2048 .f32) shapeCasts_S2048_S1x2048 := by
  dsimp only [Gen.V, Gen.hostOps0]; after_results; rfl

/-- The forget gate's bias as the kernel finds it: the vector re-laid as one row. -/
theorem V_bf (c : Dev nD) : (V m c main_v5 : S1x2048.Idx → EReal)
    = shapeCast S1x2048 (m ((c : Thread nD τ).loc main_arg4) : FVec Ideal S2048 .f32) shapeCasts_S2048_S1x2048 := by
  dsimp only [Gen.V, Gen.hostOps0]; after_results; rfl

/-- The candidate's bias as the kernel finds it: the vector re-laid as one row. -/
theorem V_bg (c : Dev nD) : (V m c main_v6 : S1x2048.Idx → EReal)
    = shapeCast S1x2048 (m ((c : Thread nD τ).loc main_arg6) : FVec Ideal S2048 .f32) shapeCasts_S2048_S1x2048 := by
  dsimp only [Gen.V, Gen.hostOps0]; after_results; rfl

/-- The output gate's bias as the kernel finds it: the vector re-laid as one row. -/
theorem V_bo (c : Dev nD) : (V m c main_v7 : S1x2048.Idx → EReal)
    = shapeCast S1x2048 (m ((c : Thread nD τ).loc main_arg8) : FVec Ideal S2048 .f32) shapeCasts_S2048_S1x2048 := by
  dsimp only [Gen.V, Gen.hostOps0]; after_results; rfl

/-! ## Each block read at an entry -/

/-- Row `p` of the input block at point `t` is row `R = 512·i + p` of x. -/
theorem x_block (c : Dev nD) (t : Fin cfg0.N) (p : Fin 512) (k : Fin 2048) (R : Fin 4096)
    (hR : R.val = win0_10.index t (0 : Fin 2) * 512 + p.val) :
    (iblk m c 0 t : FVec Ideal S512x2048 .f32) (ix2 p k) = (m ((c : Thread nD τ).loc main_arg0) : FVec Ideal SX .f32) (ix2 R k) := by
  obtain ⟨x0, x1, -, -, -, -, -, -, -, -, -, -, -, -, -, -, -, -, -, -, -, -⟩ := idx_facts t
  unfold iblk
  rw [View.read_apply]
  show V m c main_arg0 _ = _
  rw [V_main_arg0]
  congr 1
  funext a; apply Fin.ext
  match a with
  | ⟨0, _⟩ => show win0_0.index t (0 : Fin 2) * 512 + 1 * p.val = R.val; rw [x0, hR]; omega
  | ⟨1, _⟩ => show win0_0.index t (1 : Fin 2) * 2048 + 1 * k.val = k.val; rw [x1]; omega

/-- Row `q` of the input gate's weight block at point `t` is row `C = 512·j + q` of its matrix. -/
theorem wi_block (c : Dev nD) (t : Fin cfg0.N) (q : Fin 512) (k : Fin 2048) (C : Fin 2048)
    (hC : C.val = win0_10.index t (1 : Fin 2) * 512 + q.val) :
    (iblk m c 1 t : FVec Ideal S512x2048 .bf16) (ix2 q k) = (m ((c : Thread nD τ).loc main_arg1) : FVec Ideal SW .f32) (ix2 C k) := by
  obtain ⟨-, -, wi0, wi1, -, -, -, -, -, -, -, -, -, -, -, -, -, -, -, -, -, -⟩ := idx_facts t
  unfold iblk
  rw [View.read_apply]
  show V m c main_v0 _ = _
  rw [V_Wi]
  show (m ((c : Thread nD τ).loc main_arg1) : FVec Ideal S2048x2048 .f32) _ = _
  congr 1
  funext a; apply Fin.ext
  match a with
  | ⟨0, _⟩ => show win0_1.index t (0 : Fin 2) * 512 + 1 * q.val = C.val; rw [wi0, hC]; omega
  | ⟨1, _⟩ => show win0_1.index t (1 : Fin 2) * 2048 + 1 * k.val = k.val; rw [wi1]; omega

/-- Row `q` of the forget gate's weight block at point `t` is row `C = 512·j + q` of its matrix. -/
theorem wf_block (c : Dev nD) (t : Fin cfg0.N) (q : Fin 512) (k : Fin 2048) (C : Fin 2048)
    (hC : C.val = win0_10.index t (1 : Fin 2) * 512 + q.val) :
    (iblk m c 3 t : FVec Ideal S512x2048 .bf16) (ix2 q k) = (m ((c : Thread nD τ).loc main_arg3) : FVec Ideal SW .f32) (ix2 C k) := by
  obtain ⟨-, -, -, -, wf0, wf1, -, -, -, -, -, -, -, -, -, -, -, -, -, -, -, -⟩ := idx_facts t
  unfold iblk
  rw [View.read_apply]
  show V m c main_v1 _ = _
  rw [V_Wf]
  show (m ((c : Thread nD τ).loc main_arg3) : FVec Ideal S2048x2048 .f32) _ = _
  congr 1
  funext a; apply Fin.ext
  match a with
  | ⟨0, _⟩ => show win0_3.index t (0 : Fin 2) * 512 + 1 * q.val = C.val; rw [wf0, hC]; omega
  | ⟨1, _⟩ => show win0_3.index t (1 : Fin 2) * 2048 + 1 * k.val = k.val; rw [wf1]; omega

/-- Row `q` of the candidate's weight block at point `t` is row `C = 512·j + q` of its matrix. -/
theorem wg_block (c : Dev nD) (t : Fin cfg0.N) (q : Fin 512) (k : Fin 2048) (C : Fin 2048)
    (hC : C.val = win0_10.index t (1 : Fin 2) * 512 + q.val) :
    (iblk m c 5 t : FVec Ideal S512x2048 .bf16) (ix2 q k) = (m ((c : Thread nD τ).loc main_arg5) : FVec Ideal SW .f32) (ix2 C k) := by
  obtain ⟨-, -, -, -, -, -, wg0, wg1, -, -, -, -, -, -, -, -, -, -, -, -, -, -⟩ := idx_facts t
  unfold iblk
  rw [View.read_apply]
  show V m c main_v2 _ = _
  rw [V_Wg]
  show (m ((c : Thread nD τ).loc main_arg5) : FVec Ideal S2048x2048 .f32) _ = _
  congr 1
  funext a; apply Fin.ext
  match a with
  | ⟨0, _⟩ => show win0_5.index t (0 : Fin 2) * 512 + 1 * q.val = C.val; rw [wg0, hC]; omega
  | ⟨1, _⟩ => show win0_5.index t (1 : Fin 2) * 2048 + 1 * k.val = k.val; rw [wg1]; omega

/-- Row `q` of the output gate's weight block at point `t` is row `C = 512·j + q` of its matrix. -/
theorem wo_block (c : Dev nD) (t : Fin cfg0.N) (q : Fin 512) (k : Fin 2048) (C : Fin 2048)
    (hC : C.val = win0_10.index t (1 : Fin 2) * 512 + q.val) :
    (iblk m c 7 t : FVec Ideal S512x2048 .bf16) (ix2 q k) = (m ((c : Thread nD τ).loc main_arg7) : FVec Ideal SW .f32) (ix2 C k) := by
  obtain ⟨-, -, -, -, -, -, -, -, wo0, wo1, -, -, -, -, -, -, -, -, -, -, -, -⟩ := idx_facts t
  unfold iblk
  rw [View.read_apply]
  show V m c main_v3 _ = _
  rw [V_Wo]
  show (m ((c : Thread nD τ).loc main_arg7) : FVec Ideal S2048x2048 .f32) _ = _
  congr 1
  funext a; apply Fin.ext
  match a with
  | ⟨0, _⟩ => show win0_7.index t (0 : Fin 2) * 512 + 1 * q.val = C.val; rw [wo0, hC]; omega
  | ⟨1, _⟩ => show win0_7.index t (1 : Fin 2) * 2048 + 1 * k.val = k.val; rw [wo1]; omega

/-- Entry `q` of the input gate's bias block at point `t` is entry `C = 512·j + q` of its bias. -/
theorem bi_block (c : Dev nD) (t : Fin cfg0.N) (q : Fin 512) (C : Fin 2048)
    (hC : C.val = win0_10.index t (1 : Fin 2) * 512 + q.val) :
    (iblk m c 2 t : FVec Ideal S1x512 .f32) (ix2 0 q) = (m ((c : Thread nD τ).loc main_arg2) : FVec Ideal SB .f32) (ix1 C) := by
  obtain ⟨-, -, -, -, -, -, -, -, -, -, bi0, bi1, -, -, -, -, -, -, -, -, -, -⟩ := idx_facts t
  unfold iblk
  rw [View.read_apply]
  show V m c main_v4 _ = _
  rw [V_bi]
  refine Eq.trans (congrArg _ ?_) (shapeCast_a_1a_apply _ shapeCasts_S2048_S1x2048 (0 : Fin 1) C)
  funext a; apply Fin.ext
  match a with
  | ⟨0, _⟩ => show win0_2.index t (0 : Fin 2) * 1 + 1 * 0 = 0; rw [bi0]
  | ⟨1, _⟩ => show win0_2.index t (1 : Fin 2) * 512 + 1 * q.val = C.val; rw [bi1, hC]; omega

/-- Entry `q` of the forget gate's bias block at point `t` is entry `C = 512·j + q` of its bias. -/
theorem bf_block (c : Dev nD) (t : Fin cfg0.N) (q : Fin 512) (C : Fin 2048)
    (hC : C.val = win0_10.index t (1 : Fin 2) * 512 + q.val) :
    (iblk m c 4 t : FVec Ideal S1x512 .f32) (ix2 0 q) = (m ((c : Thread nD τ).loc main_arg4) : FVec Ideal SB .f32) (ix1 C) := by
  obtain ⟨-, -, -, -, -, -, -, -, -, -, -, -, bf0, bf1, -, -, -, -, -, -, -, -⟩ := idx_facts t
  unfold iblk
  rw [View.read_apply]
  show V m c main_v5 _ = _
  rw [V_bf]
  refine Eq.trans (congrArg _ ?_) (shapeCast_a_1a_apply _ shapeCasts_S2048_S1x2048 (0 : Fin 1) C)
  funext a; apply Fin.ext
  match a with
  | ⟨0, _⟩ => show win0_4.index t (0 : Fin 2) * 1 + 1 * 0 = 0; rw [bf0]
  | ⟨1, _⟩ => show win0_4.index t (1 : Fin 2) * 512 + 1 * q.val = C.val; rw [bf1, hC]; omega

/-- Entry `q` of the candidate's bias block at point `t` is entry `C = 512·j + q` of its bias. -/
theorem bg_block (c : Dev nD) (t : Fin cfg0.N) (q : Fin 512) (C : Fin 2048)
    (hC : C.val = win0_10.index t (1 : Fin 2) * 512 + q.val) :
    (iblk m c 6 t : FVec Ideal S1x512 .f32) (ix2 0 q) = (m ((c : Thread nD τ).loc main_arg6) : FVec Ideal SB .f32) (ix1 C) := by
  obtain ⟨-, -, -, -, -, -, -, -, -, -, -, -, -, -, bg0, bg1, -, -, -, -, -, -⟩ := idx_facts t
  unfold iblk
  rw [View.read_apply]
  show V m c main_v6 _ = _
  rw [V_bg]
  refine Eq.trans (congrArg _ ?_) (shapeCast_a_1a_apply _ shapeCasts_S2048_S1x2048 (0 : Fin 1) C)
  funext a; apply Fin.ext
  match a with
  | ⟨0, _⟩ => show win0_6.index t (0 : Fin 2) * 1 + 1 * 0 = 0; rw [bg0]
  | ⟨1, _⟩ => show win0_6.index t (1 : Fin 2) * 512 + 1 * q.val = C.val; rw [bg1, hC]; omega

/-- Entry `q` of the output gate's bias block at point `t` is entry `C = 512·j + q` of its bias. -/
theorem bo_block (c : Dev nD) (t : Fin cfg0.N) (q : Fin 512) (C : Fin 2048)
    (hC : C.val = win0_10.index t (1 : Fin 2) * 512 + q.val) :
    (iblk m c 8 t : FVec Ideal S1x512 .f32) (ix2 0 q) = (m ((c : Thread nD τ).loc main_arg8) : FVec Ideal SB .f32) (ix1 C) := by
  obtain ⟨-, -, -, -, -, -, -, -, -, -, -, -, -, -, -, -, bo0, bo1, -, -, -, -⟩ := idx_facts t
  unfold iblk
  rw [View.read_apply]
  show V m c main_v7 _ = _
  rw [V_bo]
  refine Eq.trans (congrArg _ ?_) (shapeCast_a_1a_apply _ shapeCasts_S2048_S1x2048 (0 : Fin 1) C)
  funext a; apply Fin.ext
  match a with
  | ⟨0, _⟩ => show win0_8.index t (0 : Fin 2) * 1 + 1 * 0 = 0; rw [bo0]
  | ⟨1, _⟩ => show win0_8.index t (1 : Fin 2) * 512 + 1 * q.val = C.val; rw [bo1, hC]; omega

/-- Entry `q` of the cell-state block at point `t` is entry `C = 512·j + q` of the previous cell state's one row. -/
theorem cx_block (c : Dev nD) (t : Fin cfg0.N) (q : Fin 512) (C : Fin 2048)
    (hC : C.val = win0_10.index t (1 : Fin 2) * 512 + q.val) :
    (iblk m c 9 t : FVec Ideal S1x512 .f32) (ix2 0 q) = (m ((c : Thread nD τ).loc main_arg9) : FVec Ideal SC .f32) (ix2 0 C) := by
  obtain ⟨-, -, -, -, -, -, -, -, -, -, -, -, -, -, -, -, -, -, c0, c1, -, -⟩ := idx_facts t
  unfold iblk
  rw [View.read_apply]
  show V m c main_arg9 _ = _
  rw [V_main_arg9]
  congr 1
  funext a; apply Fin.ext
  match a with
  | ⟨0, _⟩ => show win0_9.index t (0 : Fin 2) * 1 + 1 * 0 = 0; rw [c0]
  | ⟨1, _⟩ => show win0_9.index t (1 : Fin 2) * 512 + 1 * q.val = C.val; rw [c1, hC]; omega

end Cert.KernelIdeal.BlockReads

end
-- ==== Proof.KernelCell.lean ====
/-
  The kernel's result array is the cell function of its arguments.

  At every grid point the body stores one 512 × 512 block (`BlockBody.stored_at`), and the blocks it was given read the
  argument arrays at the rows and columns the output block covers (`BlockReads`), so what the point writes back is that
  block of `CellSpec.cell`.  The 8 × 4 output blocks tile the [4096, 2048] result: entry (r, c) lies in the block of the
  point with sample tile r / 512 and hidden tile c / 512.  Hence the array ends holding the cell function everywhere.
-/
import proofs.«105217_j60292750901718_2_alg».proof.Proof.Gen.KernelIdeal.Value
import proofs.«105217_j60292750901718_2_alg».proof.Proof.BlockBody
import proofs.«105217_j60292750901718_2_alg».proof.Proof.BlockReads
import proofs.«105217_j60292750901718_2_alg».proof.Proof.CellSpec
import Idealize.ShloMosaic.Lib.Pipeline.Value

noncomputable section

namespace Cert.KernelIdeal.KernelCell

open Cert.KernelIdeal Cert.KernelIdeal.Gen Cert.KernelIdeal.Value Cert.KernelIdeal.BlockBody Cert.KernelIdeal.BlockReads Cert.CellSpec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The cell function of the argument arrays as launched on core `c`. -/
abbrev cellOf (c : Dev nD) : Buf (Elt Ideal) ((c : Thread nD τ).loc main_v8) :=
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- A gate's pre-activation inside a block is the whole arrays' pre-activation at the entry the block's rows stand for,
    once the block's rows are known to be those rows of the arrays. -/
theorem pre_of_blocks (X : FVec Ideal S512x2048 .f32) (W : FVec Ideal S512x2048 .bf16) (b : FVec Ideal S1x512 .f32)
    (x : FVec Ideal SX .f32) (Wt : FVec Ideal SW .f32) (bt : FVec Ideal SB .f32) (p q : Fin 512) (R : Fin 4096) (C : Fin 2048)
    (hX : ∀ k, X (ix2 p k) = x (ix2 R k)) (hW : ∀ k, W (ix2 q k) = Wt (ix2 C k)) (hb : b (ix2 0 q) = bt (ix1 C)) :
    blockPre X W b p q = pre x Wt bt R C := by
  unfold blockPre pre
  rw [hb]
  exact congrArg (· + bt (ix1 C)) (Finset.sum_congr rfl fun k _ => by rw [hX k, hW k])

/-- WHAT POINT `t` WRITES BACK is block `t` of the cell function. -/
theorem flushed_eq (c : Dev nD) (t : Fin cfg0.N) :
    (dats m 0 c).flushed 10 t = ((cfg0.win 10).blk t).view.read (Elt Ideal) (cellOf m c) := by
  rw [flushed10]
  unfold out0_10
  rw [View.canon_unit_zero hz]
  simp only [View.ld_unit_zero (S := S512x2048) hz, View.ld_unit_zero (S := S1x512) hz]
  funext y
  obtain ⟨p, q, rfl⟩ : ∃ (p q : Fin 512), y = ix2 p q := ⟨y 0, y 1, eq_ix2 y⟩
  obtain ⟨-, -, -, -, -, -, -, -, -, -, -, -, -, -, -, -, -, -, -, -, o0, o1⟩ := idx_facts t
  have hp : p.val < 512 := p.isLt
  have hq : q.val < 512 := q.isLt
  show k0_pay1 (F := Ideal) (k0_pay3 (iblk m c 0 t) (iblk m c 1 t) (iblk m c 2 t)) (k0_pay4 (iblk m c 0 t) (iblk m c 3 t) (iblk m c 4 t))
      (k0_pay5 (iblk m c 0 t) (iblk m c 5 t) (iblk m c 6 t)) (k0_pay6 (iblk m c 0 t) (iblk m c 7 t) (iblk m c 8 t)) (iblk m c 9 t) (ix2 p q)
    = cellOf m c (((cfg0.win 10).blk t).view.emb (ix2 p q))
  refine (stored_at (iblk m c 0 t) (iblk m c 1 t) (iblk m c 2 t) (iblk m c 3 t) (iblk m c 4 t) (iblk m c 5 t) (iblk m c 6 t)
    (iblk m c 7 t) (iblk m c 8 t) (iblk m c 9 t) p q).trans ?_
  obtain ⟨R, hR⟩ : ∃ R : Fin 4096, R.val = win0_10.index t (0 : Fin 2) * 512 + p.val := ⟨⟨_, by omega⟩, rfl⟩
  obtain ⟨C, hC⟩ : ∃ C : Fin 2048, C.val = win0_10.index t (1 : Fin 2) * 512 + q.val := ⟨⟨_, by omega⟩, rfl⟩
  have hemb : ((cfg0.win 10).blk t).view.emb (ix2 p q) = ix2 R C := by
    funext a; apply Fin.ext
    match a with
    | ⟨0, _⟩ => show win0_10.index t (0 : Fin 2) * 512 + 1 * p.val = R.val; omega
    | ⟨1, _⟩ => show win0_10.index t (1 : Fin 2) * 512 + 1 * q.val = C.val; omega
  rw [hemb]
  show _ = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R C
  unfold cellAt
  rw [pre_of_blocks (iblk m c 0 t) (iblk m c 7 t) (iblk m c 8 t) _ _ _ p q R C
        (fun k => x_block m c t p k R hR) (fun k => wo_block m c t q k C hC) (bo_block m c t q C hC),
    pre_of_blocks (iblk m c 0 t) (iblk m c 3 t) (iblk m c 4 t) _ _ _ p q R C
        (fun k => x_block m c t p k R hR) (fun k => wf_block m c t q k C hC) (bf_block m c t q C hC),
    pre_of_blocks (iblk m c 0 t) (iblk m c 1 t) (iblk m c 2 t) _ _ _ p q R C
        (fun k => x_block m c t p k R hR) (fun k => wi_block m c t q k C hC) (bi_block m c t q C hC),
    pre_of_blocks (iblk m c 0 t) (iblk m c 5 t) (iblk m c 6 t) _ _ _ p q R C
        (fun k => x_block m c t p k R hR) (fun k => wg_block m c t q k C hC) (bg_block m c t q C hC),
    cx_block m c t q C hC]

/-- An entry of the result is in point `t`'s block iff each coordinate is in the block's range on its axis. -/
theorem mem_blk (t : Fin cfg0.N) (i : S4096x2048.Idx) :
    i ∈ ((cfg0.win 10).blk t).view.set ↔ ∀ a : Fin 2, win0_10.index t a * S512x512.size a ≤ (i a).val
      ∧ (i a).val < win0_10.index t a * S512x512.size a + S512x512.size a := by
  show i ∈ ((View.whole main_v8).slice (win0_10.rect t)).set ↔ _
  rw [View.set_slice_whole, Rect.mem_set_unit]
  exact Iff.rfl

/-- The blocks tile the result: entry (r, c) is in the block of the point with tiles (r / 512, c / 512). -/
theorem cover (i : S4096x2048.Idx) : ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := idx_onto ⟨(i 0).val / 512, by omega⟩ ⟨(i 1).val / 512, by omega⟩
  have q0 : win0_10.index t (0 : Fin 2) = (i 0).val / 512 := congrFun ht 0
  have q1 : win0_10.index t (1 : Fin 2) = (i 1).val / 512 := congrFun ht 1
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- THE RESULT ARRAY after the run is the cell function of the arguments. -/
theorem final (c : Dev nD) : (dats m 0 c).arrAt 10 cfg0.N = cellOf m c :=
  (dats m 0 c).arrAt_eq_of_cover 10 (cellOf m c) (fun t _ => flushed_eq m c t) cover

/-- The kernel's run: it terminates with the result array at the cell function and the arguments unchanged. -/
theorem run : θ_run defs (onTc (τ := τ) (main (F := Ideal))) ⟨m, fun _ => 0, ρ⟩ fun r => ∀ c : Dev nD,
      r.2.mem ((c : Thread nD τ).loc main_v8) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.KernelCell

end
-- ==== Proof.RefCell.lean ====
/-
  The reference program's result, read entry by entry, is the cell function `CellSpec.cell` of its ten arguments.

  The host program transposes each weight matrix and contracts the input's feature axis with the transposed matrix's
  first axis, so entry (r, c) of each product is Σ_k x[r, k] · W[c, k]; each bias is laid as a row and repeated down the
  4096 samples; three of the four gates go through 1 / (1 + e^(-z)) written out with the float word of 1.0, which is the
  logistic function; the last three multiplications, one addition and the outer tanh are those of the cell.
-/
import proofs.«105217_j60292750901718_2_alg».proof.Proof.Gen.ReferenceIdeal.Read
import proofs.«105217_j60292750901718_2_alg».proof.Proof.CellSpec

noncomputable section

namespace Cert.ReferenceIdeal.RefCell

open Cert.ReferenceIdeal Cert.ReferenceIdeal.Read Cert.CellSpec
open Idealize.ShloMosaic Idealize.ShloMosaic.ValueIdx
open scoped BigOperators

/-- A rank-2 index is determined by the values of its two coordinates. -/
theorem ix2_of_vals {n0 n1 : Nat} (j : (⟨2, ![n0, n1]⟩ : Shape).Idx) (a : Fin n0) (b : Fin n1)
    (h0 : (j 0).val = a.val) (h1 : (j 1).val = b.val) : j = ix2 a b :=
  funext fun d => match d with
    | ⟨0, _⟩ => Fin.ext h0
    | ⟨1, _⟩ => Fin.ext h1

/-- A rank-1 index is determined by the value of its coordinate. -/
theorem ix1_of_val {n : Nat} (j : (⟨1, ![n]⟩ : Shape).Idx) (a : Fin n) (h0 : (j 0).val = a.val) : j = ix1 a :=
  funext fun d => match d with
    | ⟨0, _⟩ => Fin.ext h0

/-- The shared shape of the four pre-activations: a sum of products read at index functions `L`, `R` that are (r, k) and
    (c, k), plus a bias read at `c`. -/
theorem pre_of_reads (x : FVec Ideal SX .f32) (W : FVec Ideal SW .f32) (b : FVec Ideal SB .f32) (r : Fin 4096) (c : Fin 2048)
    (L : Fin 2048 → SX.Idx) (R : Fin 2048 → SW.Idx) (B : SB.Idx)
    (hL : ∀ k, L k = ix2 r k) (hR : ∀ k, R k = ix2 c k) (hB : B = ix1 c) :
    (∑ k : Fin 2048, x (L k) * W (R k)) + b B = pre x W b r c := by
  unfold pre
  rw [hB]
  exact congrArg (· + b (ix1 c)) (Finset.sum_congr rfl fun k _ => by rw [hL k, hR k])

/-- Input gate: x · W_iᵀ + b_i at (r, c). -/
theorem pre_i (x0 : FVec Ideal SX .f32) (x1 : FVec Ideal SW .f32) (x2 : FVec Ideal SB .f32) (r : Fin 4096) (c : Fin 2048) :
    val_main_v4 (F := Ideal) x0 x1 x2 (ix2 r c) = pre x0 x1 x2 r c := by
  rw [val_main_v4_apply, val_main_v1_apply, val_main_v3_apply, val_main_v2_apply]
  simp only [val_main_v0_apply]
  exact pre_of_reads x0 x1 x2 r c _ _ _ (fun k => ix2_of_vals _ _ _ rfl rfl) (fun k => ix2_of_vals _ _ _ rfl rfl)
    (ix1_of_val _ _ rfl)

/-- Forget gate: x · W_fᵀ + b_f at (r, c). -/
theorem pre_f (x0 : FVec Ideal SX .f32) (x3 : FVec Ideal SW .f32) (x4 : FVec Ideal SB .f32) (r : Fin 4096) (c : Fin 2048) :
    val_main_v15 (F := Ideal) x0 x3 x4 (ix2 r c) = pre x0 x3 x4 r c := by
  rw [val_main_v15_apply, val_main_v12_apply, val_main_v14_apply, val_main_v13_apply]
  simp only [val_main_v11_apply]
  exact pre_of_reads x0 x3 x4 r c _ _ _ (fun k => ix2_of_vals _ _ _ rfl rfl) (fun k => ix2_of_vals _ _ _ rfl rfl)
    (ix1_of_val _ _ rfl)

/-- Candidate: x · W_gᵀ + b_g at (r, c). -/
theorem pre_g (x0 : FVec Ideal SX .f32) (x5 : FVec Ideal SW .f32) (x6 : FVec Ideal SB .f32) (r : Fin 4096) (c : Fin 2048) :
    val_main_v26 (F := Ideal) x0 x5 x6 (ix2 r c) = pre x0 x5 x6 r c := by
  rw [val_main_v26_apply, val_main_v23_apply, val_main_v25_apply, val_main_v24_apply]
  simp only [val_main_v22_apply]
  exact pre_of_reads x0 x5 x6 r c _ _ _ (fun k => ix2_of_vals _ _ _ rfl rfl) (fun k => ix2_of_vals _ _ _ rfl rfl)
    (ix1_of_val _ _ rfl)

/-- Output gate: x · W_oᵀ + b_o at (r, c). -/
theorem pre_o (x0 : FVec Ideal SX .f32) (x7 : FVec Ideal SW .f32) (x8 : FVec Ideal SB .f32) (r : Fin 4096) (c : Fin 2048) :
    val_main_v32 (F := Ideal) x0 x7 x8 (ix2 r c) = pre x0 x7 x8 r c := by
  rw [val_main_v32_apply, val_main_v29_apply, val_main_v31_apply, val_main_v30_apply]
  simp only [val_main_v28_apply]
  exact pre_of_reads x0 x7 x8 r c _ _ _ (fun k => ix2_of_vals _ _ _ rfl rfl) (fun k => ix2_of_vals _ _ _ rfl rfl)
    (ix1_of_val _ _ rfl)

/-- σ of the input gate's pre-activation: 1.0 / (1.0 + e^(-z)) as the host writes it. -/
theorem sig_i (x0 : FVec Ideal SX .f32) (x1 : FVec Ideal SW .f32) (x2 : FVec Ideal SB .f32) (i : S4096x2048.Idx) :
    val_main_v10 (F := Ideal) x0 x1 x2 i = Ideal.logistic (val_main_v4 (F := Ideal) x0 x1 x2 i) := by
  rw [val_main_v10_apply, val_main_v9_apply, val_main_cst_0_apply, val_main_v8_apply, val_main_v7_apply, val_main_cst_apply,
    val_main_v6_apply, val_main_v5_apply]
  exact logistic_spelled _

/-- σ of the forget gate's pre-activation. -/
theorem sig_f (x0 : FVec Ideal SX .f32) (x3 : FVec Ideal SW .f32) (x4 : FVec Ideal SB .f32) (i : S4096x2048.Idx) :
    val_main_v21 (F := Ideal) x0 x3 x4 i = Ideal.logistic (val_main_v15 (F := Ideal) x0 x3 x4 i) := by
  rw [val_main_v21_apply, val_main_v20_apply, val_main_cst_2_apply, val_main_v19_apply, val_main_v18_apply, val_main_cst_1_apply,
    val_main_v17_apply, val_main_v16_apply]
  exact logistic_spelled _

/-- σ of the output gate's pre-activation. -/
theorem sig_o (x0 : FVec Ideal SX .f32) (x7 : FVec Ideal SW .f32) (x8 : FVec Ideal SB .f32) (i : S4096x2048.Idx) :
    val_main_v38 (F := Ideal) x0 x7 x8 i = Ideal.logistic (val_main_v32 (F := Ideal) x0 x7 x8 i) := by
  rw [val_main_v38_apply, val_main_v37_apply, val_main_cst_4_apply, val_main_v36_apply, val_main_v35_apply, val_main_cst_3_apply,
    val_main_v34_apply, val_main_v33_apply]
  exact logistic_spelled _

/-- The previous cell state repeated down the samples reads its one row at the column. -/
theorem cx_row (x9 : FVec Ideal SC .f32) (r : Fin 4096) (c : Fin 2048) :
    val_main_v39 (F := Ideal) x9 (ix2 r c) = x9 (ix2 0 c) := by
  rw [val_main_v39_apply]
  exact congrArg x9 (ix2_of_vals _ _ _ rfl rfl)

/-- THE REFERENCE'S RESULT is the cell function of its arguments. -/
theorem result_eq (x0 : FVec Ideal SX .f32) (x1 : FVec Ideal SW .f32) (x2 : FVec Ideal SB .f32) (x3 : FVec Ideal SW .f32)
    (x4 : FVec Ideal SB .f32) (x5 : FVec Ideal SW .f32) (x6 : FVec Ideal SB .f32) (x7 : FVec Ideal SW .f32)
    (x8 : FVec Ideal SB .f32) (x9 : FVec Ideal SC .f32) :
    val_main_v44 (F := Ideal) x0 x1 x2 x3 x4 x5 x6 x7 x8 x9 = cell x0 x1 x2 x3 x4 x5 x6 x7 x8 x9 := by
  funext i
  obtain ⟨r, c, rfl⟩ : ∃ (r : Fin 4096) (c : Fin 2048), i = ix2 r c := ⟨i 0, i 1, eq_ix2 i⟩
  rw [val_main_v44_apply, val_main_v43_apply, val_main_v42_apply, val_main_v41_apply, val_main_v40_apply, val_main_v27_apply,
    sig_o, sig_f, sig_i, pre_o, pre_f, pre_i, pre_g, cx_row]
  rfl

end Cert.ReferenceIdeal.RefCell

end
-- ==== Proof.lean ====
/-
  An LSTM cell's forward step, fused into one kernel, against its plain array formulation: equal results over the
  extended reals.

  Both programs compute, at sample r and hidden unit c,

      σ(z_o) · tanh( σ(z_f) · cx[0, c] + σ(z_i) · tanh(z_g) ),     z_• = Σ_k x[r, k] · W_•[c, k] + b_•[c].

  The kernel tiles the [4096, 2048] result into 8 × 4 blocks of 512 × 512 and, per block, contracts a 512-row block of x
  with a 512-row block of each weight matrix over the shared feature axis; the reference transposes each weight matrix
  and takes whole matrix products.  Both are the same sum over the 2048 features.  The kernel's logistic operation is, by
  definition on the extended reals, 1 / (1 + e^(-z)), which is what the reference writes out with the float word of 1.0.
  The lower float format the kernel feeds its products with is the identity on extended reals.  Every remaining
  operation pairs one to one, operands in the same order, so the two results agree entry by entry for ALL extended-real
  inputs: the finiteness of the inputs is not used.

  The kernel's result as a function of its arguments is `KernelCell.run` (block by block, then the tiling); the
  reference's is its run read one operation at a time (`RefCell.result_eq`).  The idealization rewrote no operation, so
  the fourth conjunct is `True`.
-/
import proofs.«105217_j60292750901718_2_alg».proof.Defs
import proofs.«105217_j60292750901718_2_alg».proof.Proof.Gen.Kernel
import proofs.«105217_j60292750901718_2_alg».proof.Proof.Gen.Kernel.Frame
import proofs.«105217_j60292750901718_2_alg».proof.Proof.Gen.KernelIdeal
import proofs.«105217_j60292750901718_2_alg».proof.Proof.Gen.KernelIdeal.Frame
import proofs.«105217_j60292750901718_2_alg».proof.Proof.Gen.KernelIdeal.Value
import proofs.«105217_j60292750901718_2_alg».proof.Proof.Gen.ReferenceIdeal
import proofs.«105217_j60292750901718_2_alg».proof.Proof.Gen.ReferenceIdeal.Run
import proofs.«105217_j60292750901718_2_alg».proof.Proof.Gen.ReferenceIdeal.Read
import proofs.«105217_j60292750901718_2_alg».proof.Proof.Gen.Pre_finite_inputs
import proofs.«105217_j60292750901718_2_alg».proof.Proof.KernelCell
import proofs.«105217_j60292750901718_2_alg».proof.Proof.RefCell
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the cell function of those arguments in their
    result arrays. -/
theorem algebraic : Cert.algebraic_KernelIdeal_ReferenceIdeal := by
  intro m ρ m' ρ' _ hagree
  refine ⟨fun c => Cert.KernelIdeal.KernelCell.cellOf m c, Cert.KernelIdeal.KernelCell.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v44_eq (F := Ideal) _ _ _ _ _ _ _ _ _ _).trans ?_
  refine (Cert.ReferenceIdeal.RefCell.result_eq _ _ _ _ _ _ _ _ _ _).trans ?_
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
